-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S90000x758 : Shape := ⟨2, ![90000, 758]⟩
abbrev S90000x10 : Shape := ⟨2, ![90000, 10]⟩
abbrev S758x10 : Shape := ⟨2, ![758, 10]⟩
abbrev S758 : Shape := ⟨1, ![758]⟩
abbrev S768x95000 : Shape := ⟨2, ![768, 95000]⟩
abbrev S_ : Shape := ⟨0, ![]⟩

class Facts : Prop where
  bcast_S_S90000x758 : S_.BroadcastsInDim S90000x758 (![] : Fin 0 → Fin S90000x758.rank)
  reducesTo_S90000x758_S_d0_1 : S90000x758.ReducesTo [0, 1] S_
  h_S_ : 0 < S_.numel
  bcast_S_S90000x10 : S_.BroadcastsInDim S90000x10 (![] : Fin 0 → Fin S90000x10.rank)
  reducesTo_S90000x10_S_d0_1 : S90000x10.ReducesTo [0, 1] S_
  bcast_S_S758x10 : S_.BroadcastsInDim S758x10 (![] : Fin 0 → Fin S758x10.rank)
  reducesTo_S758x10_S_d0_1 : S758x10.ReducesTo [0, 1] S_
  bcast_S_S758 : S_.BroadcastsInDim S758 (![] : Fin 0 → Fin S758.rank)
  reducesTo_S758_S_d0 : S758.ReducesTo [0] S_
  bcast_S_S768x95000 : S_.BroadcastsInDim S768x95000 (![] : Fin 0 → Fin S768x95000.rank)
  reducesTo_S768x95000_S_d0_1 : S768x95000.ReducesTo [0, 1] S_

variable [Facts]

def fn_part1 {F : FTy → Type} [FloatOps F] (main_arg5 : FVec F S768x95000 .f32) (main_v13 : IVec S_ 1) (main_v16 : IVec S758 1) : IVec S_ 1 :=
  let main_c_5 : IVec S_ 1 := constantI S_ 1 1#1
  let main_v17 : IVec S_ 1 := (fun x v => Host.reduce IntOp.andi x v reducesTo_S758_S_d0 h_S_) main_v16 main_c_5
  let main_v18 : IVec S_ 1 := andi main_v13 main_v17
  let main_v19 : FVec F S768x95000 .f32 := Host.absf main_arg5
  let main_cst_6 : FVec F S_ .f32 := constant S_ .f32 0x7F800000#32
  let main_v20 : FVec F S768x95000 .f32 := broadcastInDim S768x95000 ![] bcast_S_S768x95000 main_cst_6
  let main_v21 : IVec S768x95000 1 := cmpf .olt main_v19 main_v20
  let main_c_7 : IVec S_ 1 := constantI S_ 1 1#1
  let main_v22 : IVec S_ 1 := (fun x v => Host.reduce IntOp.andi x v reducesTo_S768x95000_S_d0_1 h_S_) main_v21 main_c_7
  let main_v23 : IVec S_ 1 := andi main_v18 main_v22
  main_v23

def fn {F : FTy → Type} [FloatOps F] (main_arg0 : IVec S1024 32) (main_arg1 : FVec F S90000x758 .f32) (main_arg2 : FVec F S90000x10 .f32) (main_arg3 : FVec F S758x10 .f32) (main_arg4 : FVec F S758 .f32) (main_arg5 : FVec F S768x95000 .f32) : IVec S_ 1 :=
  let main_v0 : FVec F S90000x758 .f32 := Host.absf main_arg1
  let main_cst : FVec F S_ .f32 := constant S_ .f32 0x7F800000#32
  let main_v1 : FVec F S90000x758 .f32 := broadcastInDim S90000x758 ![] bcast_S_S90000x758 main_cst
  let main_v2 : IVec S90000x758 1 := cmpf .olt main_v0 main_v1
  let main_c : IVec S_ 1 := constantI S_ 1 1#1
  let main_v3 : IVec S_ 1 := (fun x v => Host.reduce IntOp.andi x v reducesTo_S90000x758_S_d0_1 h_S_) main_v2 main_c
  let main_v4 : FVec F S90000x10 .f32 := Host.absf main_arg2
  let main_cst_0 : FVec F S_ .f32 := constant S_ .f32 0x7F800000#32
  let main_v5 : FVec F S90000x10 .f32 := broadcastInDim S90000x10 ![] bcast_S_S90000x10 main_cst_0
  let main_v6 : IVec S90000x10 1 := cmpf .olt main_v4 main_v5
  let main_c_1 : IVec S_ 1 := constantI S_ 1 1#1
  let main_v7 : IVec S_ 1 := (fun x v => Host.reduce IntOp.andi x v reducesTo_S90000x10_S_d0_1 h_S_) main_v6 main_c_1
  let main_v8 : IVec S_ 1 := andi main_v3 main_v7
  let main_v9 : FVec F S758x10 .f32 := Host.absf main_arg3
  let main_cst_2 : FVec F S_ .f32 := constant S_ .f32 0x7F800000#32
  let main_v10 : FVec F S758x10 .f32 := broadcastInDim S758x10 ![] bcast_S_S758x10 main_cst_2
  let main_v11 : IVec S758x10 1 := cmpf .olt main_v9 main_v10
  let main_c_3 : IVec S_ 1 := constantI S_ 1 1#1
  let main_v12 : IVec S_ 1 := (fun x v => Host.reduce IntOp.andi x v reducesTo_S758x10_S_d0_1 h_S_) main_v11 main_c_3
  let main_v13 : IVec S_ 1 := andi main_v8 main_v12
  let main_v14 : FVec F S758 .f32 := Host.absf main_arg4
  let main_cst_4 : FVec F S_ .f32 := constant S_ .f32 0x7F800000#32
  let main_v15 : FVec F S758 .f32 := broadcastInDim S758 ![] bcast_S_S758 main_cst_4
  let main_v16 : IVec S758 1 := cmpf .olt main_v14 main_v15
  fn_part1 (F := F) main_arg5 main_v13 main_v16
-- ==== Kernel.lean ====
abbrev S1024 : Shape := ⟨1, ![1024]⟩
abbrev S90000x758 : Shape := ⟨2, ![90000, 758]⟩
abbrev S90000x10 : Shape := ⟨2, ![90000, 10]⟩
abbrev S758x10 : Shape := ⟨2, ![758, 10]⟩
abbrev S758 : Shape := ⟨1, ![758]⟩
abbrev S768x95000 : Shape := ⟨2, ![768, 95000]⟩
abbrev S_ : Shape := ⟨0, ![]⟩
abbrev S1024x1 : Shape := ⟨2, ![1024, 1]⟩
abbrev S1024x758 : Shape := ⟨2, ![1024, 758]⟩
abbrev S1024x10 : Shape := ⟨2, ![1024, 10]⟩
abbrev S10x758 : Shape := ⟨2, ![10, 758]⟩
abbrev S1x758 : Shape := ⟨2, ![1, 758]⟩
abbrev S1024x768 : Shape := ⟨2, ![1024, 768]⟩
abbrev S1024x95000 : Shape := ⟨2, ![1024, 95000]⟩
abbrev S768x2048 : Shape := ⟨2, ![768, 2048]⟩
abbrev S1024x2048 : Shape := ⟨2, ![1024, 2048]⟩

abbrev nBuf : Space → Nat
  | .hbm => 34
  | .vmem => 5
  | .smem => 0
  | _ => 0

abbrev bufTy : (tb : Table) → Fin (tcTables nBuf tb) → BufTy
  | .hbm, ⟨0, _⟩ => ⟨S1024, .i32⟩
  | .hbm, ⟨1, _⟩ => ⟨S90000x758, .f32⟩
  | .hbm, ⟨2, _⟩ => ⟨S90000x10, .f32⟩
  | .hbm, ⟨3, _⟩ => ⟨S758x10, .f32⟩
  | .hbm, ⟨4, _⟩ => ⟨S758, .f32⟩
  | .hbm, ⟨5, _⟩ => ⟨S768x95000, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x758, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024x10, .f32⟩
  | .hbm, ⟨24, _⟩ => ⟨S10x758, .f32⟩
  | .hbm, ⟨25, _⟩ => ⟨S1024x758, .f32⟩
  | .hbm, ⟨26, _⟩ => ⟨S1x758, .f32⟩
  | .hbm, ⟨27, _⟩ => ⟨S1024x758, .f32⟩
  | .hbm, ⟨28, _⟩ => ⟨S1024x758, .f32⟩
  | .hbm, ⟨29, _⟩ => ⟨S1024x758, .f32⟩
  | .hbm, ⟨30, _⟩ => ⟨S_, .f32⟩
  | .hbm, ⟨31, _⟩ => ⟨S1024x10, .f32⟩
  | .hbm, ⟨32, _⟩ => ⟨S1024x768, .f32⟩
  | .hbm, ⟨33, _⟩ => ⟨S1024x95000, .f32⟩
  | .local _ .vmem, ⟨0, _⟩ => ⟨S1024x768, .f32⟩
  | .local _ .vmem, ⟨1, _⟩ => ⟨S768x2048, .f32⟩
  | .local _ .vmem, ⟨2, _⟩ => ⟨S768x2048, .f32⟩
  | .local _ .vmem, ⟨3, _⟩ => ⟨S1024x2048, .f32⟩
  | .local _ .vmem, ⟨4, _⟩ => ⟨S1024x2048, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![47], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S758x10_S10x758_1_0 : S758x10.Transposes [1, 0] S10x758
  bcast_S758_S1x758_1 : S758.BroadcastsInDim S1x758 (![1] : Fin 1 → Fin S1x758.rank)
  bcast_S1x758_S1024x758_0_1 : S1x758.BroadcastsInDim S1024x758 (![0, 1] : Fin 2 → Fin S1024x758.rank)
  bcast_S_S1024x10 : S_.BroadcastsInDim S1024x10 (![] : Fin 0 → Fin S1024x10.rank)
  concatenates_S1024x758_S1024x10_S1024x768_d1 : Shape.Concatenates [S1024x758, S1024x10] S1024x768 1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x2048_S768x2048_0_0 : ∀ a, (![0, 0] : Fin 2 → Nat) a + S768x2048.size a ≤ S768x2048.size a
  h_S768x2048 : 0 < S768x2048.numel
  inb_S1024x2048_S1024x2048_0_0 : ∀ a, (![0, 0] : Fin 2 → Nat) a + S1024x2048.size a ≤ S1024x2048.size a
  h_S1024x2048 : 0 < S1024x2048.numel
  gather_S90000x758_S1024x1_S1024x758_1_0_n_n_0_1_1758_wf : GatherDims.WF S90000x758 S1024x1 S1024x758 [1] [0] [] [0] [] 1 ![1, 758]
  gather_S90000x10_S1024x1_S1024x10_1_0_n_n_0_1_110_wf : GatherDims.WF S90000x10 S1024x1 S1024x10 [1] [0] [] [0] [] 1 ![1, 10]
  dot_S1024x10_S10x758_S1024x758_1_0_0_1_n_n_wf : DotDims.WF S1024x10 S10x758 S1024x758 [1] [0] [0] [1] [] []
  dot_S1024x768_S768x2048_S1024x2048_1_0_0_1_n_n_wf : DotDims.WF S1024x768 S768x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S1024x768.size a
  hwx0_0 : ∀ i : grid0.Coords, EltTy.bits .f32 = 32 ∨ (Rect.block (s := S1024x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S768x2048.size a < S768x95000.size a
  hwx0_1 : ∀ i : grid0.Coords, EltTy.bits .f32 = 32 ∨ (Rect.unit (s := S768x95000) (fun a => cc0_transform_1 i a * S768x2048.size a) (fun a => (Pipeline.Clip.of (cc0_transform_1 i a) (S768x2048.size a) (S768x95000.size a)).extent (S768x2048.size a)) fun a => Pipeline.Clip.inb (Pipeline.Clip.ok_of (hstart0_1 i a))).WholeWords (EltTy.packing .f32)
  hwxs0_1 : ∀ i : grid0.Coords, EltTy.bits .f32 = 32 ∨ (Rect.unit (s := S768x2048) (fun _ => 0) (fun a => (Pipeline.Clip.of (cc0_transform_1 i a) (S768x2048.size a) (S768x95000.size a)).extent (S768x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2048.size a < S1024x95000.size a
  hwx0_2 : ∀ i : grid0.Coords, EltTy.bits .f32 = 32 ∨ (Rect.unit (s := S1024x95000) (fun a => cc0_transform_2 i a * S1024x2048.size a) (fun a => (Pipeline.Clip.of (cc0_transform_2 i a) (S1024x2048.size a) (S1024x95000.size a)).extent (S1024x2048.size a)) fun a => Pipeline.Clip.inb (Pipeline.Clip.ok_of (hstart0_2 i a))).WholeWords (EltTy.packing .f32)
  hwxs0_2 : ∀ i : grid0.Coords, EltTy.bits .f32 = 32 ∨ (Rect.unit (s := S1024x2048) (fun _ => 0) (fun a => (Pipeline.Clip.of (cc0_transform_2 i a) (S1024x2048.size a) (S1024x95000.size a)).extent (S1024x2048.size a)) fun a => (Nat.zero_add _).trans_le (Pipeline.Clip.extent_le (Pipeline.Clip.ok_of (hstart0_2 i a)))).WholeWords (EltTy.packing .f32)

variable [Facts₀]

def gather_S90000x758_S1024x1_S1024x758_1_0_n_n_0_1_1758 : GatherDims S90000x758 S1024x1 S1024x758 where
  offsetDims := [1]
  collapsedSliceDims := [0]
  operandBatchingDims := []
  startIndicesBatchingDims := []
  startIndexMap := [0]
  indexVectorDim := 1
  sliceSizes := ![1, 758]
  wf := gather_S90000x758_S1024x1_S1024x758_1_0_n_n_0_1_1758_wf
def gather_S90000x10_S1024x1_S1024x10_1_0_n_n_0_1_110 : GatherDims S90000x10 S1024x1 S1024x10 where
  offsetDims := [1]
  collapsedSliceDims := [0]
  operandBatchingDims := []
  startIndicesBatchingDims := []
  startIndexMap := [0]
  indexVectorDim := 1
  sliceSizes := ![1, 10]
  wf := gather_S90000x10_S1024x1_S1024x10_1_0_n_n_0_1_110_wf
def dot_S1024x10_S10x758_S1024x758_1_0_0_1_n_n : DotDims S1024x10 S10x758 S1024x758 where
  lhsContracting := [1]
  rhsContracting := [0]
  lhsNonContracting := [0]
  rhsNonContracting := [1]
  lhsBatch := []
  rhsBatch := []
  wf := dot_S1024x10_S10x758_S1024x758_1_0_0_1_n_n_wf
def dot_S1024x768_S768x2048_S1024x2048_1_0_0_1_n_n : DotDims S1024x768 S768x2048 S1024x2048 where
  lhsContracting := [1]
  rhsContracting := [0]
  lhsNonContracting := [0]
  rhsNonContracting := [1]
  lhsBatch := []
  rhsBatch := []
  wf := dot_S1024x768_S768x2048_S1024x2048_1_0_0_1_n_n_wf

abbrev win0_0 : Pipeline.Window sig grid0 :=
  Pipeline.Window.ofSpec (Memref.whole main_v21) S1024x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg5) S768x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v22) S1024x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024 : Shape := ⟨1, ![1024]⟩
abbrev S90000x758 : Shape := ⟨2, ![90000, 758]⟩
abbrev S90000x10 : Shape := ⟨2, ![90000, 10]⟩
abbrev S758x10 : Shape := ⟨2, ![758, 10]⟩
abbrev S758 : Shape := ⟨1, ![758]⟩
abbrev S768x95000 : Shape := ⟨2, ![768, 95000]⟩
abbrev S_ : Shape := ⟨0, ![]⟩
abbrev S1024x1 : Shape := ⟨2, ![1024, 1]⟩
abbrev S1024x758 : Shape := ⟨2, ![1024, 758]⟩
abbrev S1024x10 : Shape := ⟨2, ![1024, 10]⟩
abbrev S10x758 : Shape := ⟨2, ![10, 758]⟩
abbrev S1x758 : Shape := ⟨2, ![1, 758]⟩
abbrev S1024x768 : Shape := ⟨2, ![1024, 768]⟩
abbrev S1024x95000 : Shape := ⟨2, ![1024, 95000]⟩

abbrev nBuf : Space → Nat
  | .hbm => 34
  | .vmem => 0
  | .smem => 0
  | _ => 0

abbrev bufTy : (tb : Table) → Fin (tcTables nBuf tb) → BufTy
  | .hbm, ⟨0, _⟩ => ⟨S1024, .i32⟩
  | .hbm, ⟨1, _⟩ => ⟨S90000x758, .f32⟩
  | .hbm, ⟨2, _⟩ => ⟨S90000x10, .f32⟩
  | .hbm, ⟨3, _⟩ => ⟨S758x10, .f32⟩
  | .hbm, ⟨4, _⟩ => ⟨S758, .f32⟩
  | .hbm, ⟨5, _⟩ => ⟨S768x95000, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x758, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024x10, .f32⟩
  | .hbm, ⟨24, _⟩ => ⟨S10x758, .f32⟩
  | .hbm, ⟨25, _⟩ => ⟨S1024x758, .f32⟩
  | .hbm, ⟨26, _⟩ => ⟨S1x758, .f32⟩
  | .hbm, ⟨27, _⟩ => ⟨S1024x758, .f32⟩
  | .hbm, ⟨28, _⟩ => ⟨S1024x758, .f32⟩
  | .hbm, ⟨29, _⟩ => ⟨S1024x758, .f32⟩
  | .hbm, ⟨30, _⟩ => ⟨S_, .f32⟩
  | .hbm, ⟨31, _⟩ => ⟨S1024x10, .f32⟩
  | .hbm, ⟨32, _⟩ => ⟨S1024x768, .f32⟩
  | .hbm, ⟨33, _⟩ => ⟨S1024x95000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S758x10_S10x758_1_0 : S758x10.Transposes [1, 0] S10x758
  bcast_S758_S1x758_1 : S758.BroadcastsInDim S1x758 (![1] : Fin 1 → Fin S1x758.rank)
  bcast_S1x758_S1024x758_0_1 : S1x758.BroadcastsInDim S1024x758 (![0, 1] : Fin 2 → Fin S1024x758.rank)
  bcast_S_S1024x10 : S_.BroadcastsInDim S1024x10 (![] : Fin 0 → Fin S1024x10.rank)
  concatenates_S1024x758_S1024x10_S1024x768_d1 : Shape.Concatenates [S1024x758, S1024x10] S1024x768 1
  gather_S90000x758_S1024x1_S1024x758_1_0_n_n_0_1_1758_wf : GatherDims.WF S90000x758 S1024x1 S1024x758 [1] [0] [] [0] [] 1 ![1, 758]
  gather_S90000x10_S1024x1_S1024x10_1_0_n_n_0_1_110_wf : GatherDims.WF S90000x10 S1024x1 S1024x10 [1] [0] [] [0] [] 1 ![1, 10]
  dot_S1024x10_S10x758_S1024x758_1_0_0_1_n_n_wf : DotDims.WF S1024x10 S10x758 S1024x758 [1] [0] [0] [1] [] []
  dot_S1024x768_S768x95000_S1024x95000_1_0_0_1_n_n_wf : DotDims.WF S1024x768 S768x95000 S1024x95000 [1] [0] [0] [1] [] []

variable [Facts₀]

def gather_S90000x758_S1024x1_S1024x758_1_0_n_n_0_1_1758 : GatherDims S90000x758 S1024x1 S1024x758 where
  offsetDims := [1]
  collapsedSliceDims := [0]
  operandBatchingDims := []
  startIndicesBatchingDims := []
  startIndexMap := [0]
  indexVectorDim := 1
  sliceSizes := ![1, 758]
  wf := gather_S90000x758_S1024x1_S1024x758_1_0_n_n_0_1_1758_wf
def gather_S90000x10_S1024x1_S1024x10_1_0_n_n_0_1_110 : GatherDims S90000x10 S1024x1 S1024x10 where
  offsetDims := [1]
  collapsedSliceDims := [0]
  operandBatchingDims := []
  startIndicesBatchingDims := []
  startIndexMap := [0]
  indexVectorDim := 1
  sliceSizes := ![1, 10]
  wf := gather_S90000x10_S1024x1_S1024x10_1_0_n_n_0_1_110_wf
def dot_S1024x10_S10x758_S1024x758_1_0_0_1_n_n : DotDims S1024x10 S10x758 S1024x758 where
  lhsContracting := [1]
  rhsContracting := [0]
  lhsNonContracting := [0]
  rhsNonContracting := [1]
  lhsBatch := []
  rhsBatch := []
  wf := dot_S1024x10_S10x758_S1024x758_1_0_0_1_n_n_wf
def dot_S1024x768_S768x95000_S1024x95000_1_0_0_1_n_n : DotDims S1024x768 S768x95000 S1024x95000 where
  lhsContracting := [1]
  rhsContracting := [0]
  lhsNonContracting := [0]
  rhsNonContracting := [1]
  lhsBatch := []
  rhsBatch := []
  wf := dot_S1024x768_S768x95000_S1024x95000_1_0_0_1_n_n_wf

class Facts : Prop extends Facts₀ where

variable [Facts]
-- ==== Proof.KernelFrame.lean ====
/- The frame of the word-level program: every argument array of @main ends as it was launched.
   The body's triple is stated for any contents of its three buffers and says nothing of what the store leaves
   in the output's buffer; the pipeline's proof data constrains no window, so the blocks that overhang their
   arrays need no description. -/
import proofs.«168535_j63239098466878_2_alg».proof.Proof.Gen.Kernel.Frame
import proofs.«168535_j63239098466878_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The kernel body on whole buffers at any contents: it loads the two inputs whole, loads the output whole and
    stores one whole value into it. The inputs' buffers come back as they were, the output's at some contents. -/
theorem sound_kernel (c : Dev nD) (E : Set ℕ) (i : grid0.Coords) (arg1 : Memref sig .tc .vmem S1024x768 .f32) (harg1 : arg1.IsWhole) (arg2 : Memref sig .tc .vmem S768x2048 .f32) (harg2 : arg2.IsWhole) (arg3 : Memref sig .tc .vmem S1024x2048 .f32) (harg3 : arg3.IsWhole)
    (x0 : Vec F S1024x768 .f32) (x1 : Vec F S768x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ (∃ X, owns (c : Thread nD τ) arg3 fullShare X)) -∗ K ⟨⟩))
      ⊢ wp frame (wpE (defs₀ (F := F)) Variants.none c none) E (cc0__reverse_matmul_kernel i arg1 harg1 arg2 harg2 arg3 harg3) K := by
  simp only [cc0__reverse_matmul_kernel_eq_skeleton]; unfold cc0__reverse_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _, _; isplitr
  swap; · iexact H2
  ipureintro
  rfl

/-! ## The pipeline's proof data -/

/-- The proof data of the one pipeline on core `c`: the arrays as the region finds them; of what the body leaves in
    a window's buffer, nothing; the invariant the scoped rest and the generator register, untouched; nothing owed;
    full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The proof data's arrays are the region-entry contents. -/
theorem A_eq (c : Dev nD) (w : Fin cfg0.W) : (rdat m c).A w = V m c (Pipeline.arrRef spec0 w) := by
  dsimp only [rdat]

/-! ## The body obligation, at a generic point -/

/-- The body at any point, its three buffers at any contents: the triple above applies, the invariant and the
    core's dues pass through unread, and each buffer comes back at some contents, of which nothing is asked. -/
theorem sound_body (c : Dev nD) (t : Fin cfg0.N)
    (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (Y 0) X⌝ ∗ owns (c : Thread nD τ) (st0_0 t) fullShare X)
          ∗ (∃ X, ⌜(rdat m c).after 1 t (Y 1) X⌝ ∗ owns (c : Thread nD τ) (st0_1 t) fullShare X)
          ∗ (∃ X, ⌜(rdat m c).after 2 t (Y 2) X⌝ ∗ owns (c : Thread nD τ) (st0_2 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply (sound_kernel c Set.univ (grid0.coords t) _ _ _ _ _ _ (Y 0) (Y 1) _)
  isplitl [H0]; · iexact H0
  isplitl [H1]; · iexact H1
  isplitl [H2]; · iexists _; iexact H2
  iintro ⟨H0, H1, ⟨%X, H2⟩⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  iexists X; isplitr; · ipureintro; trivial
  iexact H2

/-- The library's body obligation, at every point and for any contents the buffers may hold. -/
theorem body_obligation (c : Dev nD) : (rdat (F := F) m c).BodyObligation (defs₀ (F := F)) Variants.none () Set.univ := fun t Y _ => by
  rw [bigSep_W0, bigSep_W0]
  exact sound_body m c t Y

/-! ## The run and the frame -/

set_option backward.isDefEq.respectTransparency.types false in
/-- Every weakly fair execution of @main on the TensorCores terminates, every array of the pipeline at some contents
    the write-backs may have left it at and every other unscoped buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- THE FRAME: every argument array of @main ends as launched. The five arrays no window stages bypass the region;
    the sixth is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      by
        have h1 := (h c).1 1
        rw [(rdat m c).ArrAt_in 1 rfl] at h1
        exact h1.trans ((A_eq m c 1).trans (V_main_arg5 m c))⟩) (run_main m ρ)

end Cert.Kernel.FrameProof

end
-- ==== Proof.Body.lean ====
/-
  The kernel body as a triple, at any float instance. The body reads its three staging buffers whole
  and overwrites the third whole: given the first buffer at contents `x0` and the second at `x1`, whatever
  the third holds, it ends with the first two unchanged and the third holding the product payload of `x0` and `x1`
  (the skeleton's `k0_pay1`: both operands narrowed, multiplied into a zero accumulator). Every access is the
  rectangle at offset zero of the buffer's own extents, so a load reads the contents and the store leaves its payload.
-/
import proofs.«168535_j63239098466878_2_alg».proof.Proof.Gen.KernelIdeal.Launch
import proofs.«168535_j63239098466878_2_alg».proof.Proof.Gen.KernelIdeal.Skeleton
import proofs.«168535_j63239098466878_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: the origin. -/
theorem origin2 : (![0, 0] : Fin 2 → Nat) = fun _ => 0 := funext fun a => by fin_cases a <;> rfl

/-- The whole-buffer rectangle of the result's staging buffer. -/
abbrev whole2 : Rect S1024x2048 := Rect.unit (s := S1024x2048) ![0, 0] S1024x2048.size inb_S1024x2048_S1024x2048_0_0

/-- The one store covers the buffer: its rectangle is the buffer. -/
theorem store_covers (p0 : Vec F S1024x2048 .f32) (y : S1024x2048.Idx) :
    ∃ pc ∈ ([⟨whole2, p0⟩] : List (View.Piece (Elt F) S1024x2048 .f32)), y ∈ pc.1.set :=
  View.cover_of_tiled [⟨whole2, p0⟩] S1024x2048.size (by rfl) y

set_option maxHeartbeats 1000000 in
/-- The body on whole staging memrefs: the first two at `x0` and `x1`, the third at anything; it returns them with the
    third at the payload of `x0` and `x1`. -/
theorem sound_kernel (c : Dev nD) (E : Set ℕ) (i : grid0.Coords)
    (arg1 : Memref sig .tc .vmem S1024x768 .f32) (harg1 : arg1.IsWhole)
    (arg2 : Memref sig .tc .vmem S768x2048 .f32) (harg2 : arg2.IsWhole)
    (arg3 : Memref sig .tc .vmem S1024x2048 .f32) (harg3 : arg3.IsWhole)
    (x0 : Vec F S1024x768 .f32) (x1 : Vec F S768x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__reverse_matmul_kernel i arg1 harg1 arg2 harg2 arg3 harg3) K := by
  simp only [cc0__reverse_matmul_kernel_eq_skeleton]; unfold cc0__reverse_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (store_covers _), View.canon_unit_zero origin2]
  simp only [View.readAt_eq_ld, View.ld_unit_zero (S := S1024x768) origin2, View.ld_unit_zero (S := S768x2048) origin2]

end Cert.KernelIdeal.Body

end
-- ==== Proof.Payload.lean ====
/-
  The body's product payload read at an index, at the ideal values. Narrowing to the shorter float format
  is the identity on extended reals and the accumulator is the zero splat, so entry (r, q) of the payload of a
  left block `x0` and a right block `x1` is the sum over the contracted axis k of x0 (r, k) · x1 (k, q). In
  particular it reads the right block in column q only: two right blocks that agree on the columns below a
  bound give payloads that agree on those columns.
-/
import proofs.«168535_j63239098466878_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic

/-- The cell of the left block that output cell `y` meets at contraction index `k`: row of `y`, column `k`. -/
abbrev lcell (y : S1024x2048.Idx) (k : Fin 768) : S1024x768.Idx := fun a => match a with
  | ⟨0, _⟩ => ⟨(y 0).val, (y 0).isLt⟩
  | ⟨1, _⟩ => ⟨k.val, k.isLt⟩

/-- The cell of the right block it meets there: row `k`, column of `y`. -/
abbrev rcell (y : S1024x2048.Idx) (k : Fin 768) : S768x2048.Idx := fun a => match a with
  | ⟨0, _⟩ => ⟨k.val, k.isLt⟩
  | ⟨1, _⟩ => ⟨(y 1).val, (y 1).isLt⟩

theorem lhs_row (y : S1024x2048.Idx) (q : (dot_S1024x768_S768x2048_S1024x2048_1_0_0_1_n_n).contr.Idx) :
    ((dot_S1024x768_S768x2048_S1024x2048_1_0_0_1_n_n).lhsIdx y q 0).val = (y 0).val := by
  unfold DotDims.lhsIdx
  rw [dif_neg (show ¬(0 : Fin S1024x768.rank) ∈ (dot_S1024x768_S768x2048_S1024x2048_1_0_0_1_n_n).lhsBatch by decide),
    dif_pos (show (0 : Fin S1024x768.rank) ∈ (dot_S1024x768_S768x2048_S1024x2048_1_0_0_1_n_n).lhsNonContracting by decide)]
  rfl
theorem lhs_col (y : S1024x2048.Idx) (q : (dot_S1024x768_S768x2048_S1024x2048_1_0_0_1_n_n).contr.Idx) :
    ((dot_S1024x768_S768x2048_S1024x2048_1_0_0_1_n_n).lhsIdx y q 1).val = (q ⟨0, by decide⟩).val :=
  (dot_S1024x768_S768x2048_S1024x2048_1_0_0_1_n_n).lhsIdx_val_of_single rfl y q
theorem rhs_row (y : S1024x2048.Idx) (q : (dot_S1024x768_S768x2048_S1024x2048_1_0_0_1_n_n).contr.Idx) :
    ((dot_S1024x768_S768x2048_S1024x2048_1_0_0_1_n_n).rhsIdx y q 0).val = (q ⟨0, by decide⟩).val :=
  (dot_S1024x768_S768x2048_S1024x2048_1_0_0_1_n_n).rhsIdx_val_of_single rfl y q
theorem rhs_col (y : S1024x2048.Idx) (q : (dot_S1024x768_S768x2048_S1024x2048_1_0_0_1_n_n).contr.Idx) :
    ((dot_S1024x768_S768x2048_S1024x2048_1_0_0_1_n_n).rhsIdx y q 1).val = (y 1).val := by
  unfold DotDims.rhsIdx
  rw [dif_neg (show ¬(1 : Fin S768x2048.rank) ∈ (dot_S1024x768_S768x2048_S1024x2048_1_0_0_1_n_n).rhsBatch by decide),
    dif_pos (show (1 : Fin S768x2048.rank) ∈ (dot_S1024x768_S768x2048_S1024x2048_1_0_0_1_n_n).rhsNonContracting by decide)]
  rfl

/-- Entry `y` of the payload is the sum over the contracted axis of the products of the cells it meets. -/
theorem pay_apply (x0 : Vec Ideal S1024x768 .f32) (x1 : Vec Ideal S768x2048 .f32) (y : S1024x2048.Idx) :
    k0_pay1 (F := Ideal) x0 x1 y = ∑ k : Fin 768, x0 (lcell y k) * x1 (rcell y k) := by
  unfold k0_pay1
  simp only [matmul]
  rw [Ideal.matmul_constant_zero_apply,
    ← Equiv.sum_comp (ValueIdx.contrEquiv1 dot_S1024x768_S768x2048_S1024x2048_1_0_0_1_n_n 768 rfl rfl).symm]
  refine Finset.sum_congr rfl fun k _ => ?_
  have hk := ValueIdx.contrEquiv1_symm_val dot_S1024x768_S768x2048_S1024x2048_1_0_0_1_n_n 768 rfl rfl k
  have el : (dot_S1024x768_S768x2048_S1024x2048_1_0_0_1_n_n).lhsIdx y
      ((ValueIdx.contrEquiv1 dot_S1024x768_S768x2048_S1024x2048_1_0_0_1_n_n 768 rfl rfl).symm k) = lcell y k :=
    funext fun a => Fin.ext (by
      match a with
      | ⟨0, _⟩ => exact lhs_row _ _
      | ⟨1, _⟩ => exact (lhs_col _ _).trans hk)
  have er : (dot_S1024x768_S768x2048_S1024x2048_1_0_0_1_n_n).rhsIdx y
      ((ValueIdx.contrEquiv1 dot_S1024x768_S768x2048_S1024x2048_1_0_0_1_n_n 768 rfl rfl).symm k) = rcell y k :=
    funext fun a => Fin.ext (by
      match a with
      | ⟨0, _⟩ => exact (rhs_row _ _).trans hk
      | ⟨1, _⟩ => exact rhs_col _ _)
  rw [el, er, ValueIdx.truncf_apply, ValueIdx.truncf_apply, shapeCast_self]

/-- The payload's columns below `n` read the right block's columns below `n` only. -/
theorem pay_congr_cols (x0 : Vec Ideal S1024x768 .f32) (x1 x1' : Vec Ideal S768x2048 .f32) (n : Nat)
    (h : ∀ j : S768x2048.Idx, (j 1).val < n → x1 j = x1' j) (y : S1024x2048.Idx) (hy : (y 1).val < n) :
    k0_pay1 (F := Ideal) x0 x1 y = k0_pay1 (F := Ideal) x0 x1' y := by
  rw [pay_apply, pay_apply]
  exact Finset.sum_congr rfl fun k _ => by rw [h (rcell y k) hy]

end Cert.KernelIdeal.Payload

end
-- ==== Proof.Data.lean ====
/-
  The proof data of the idealized kernel's one pipeline, and its body obligation, at the ideal values.
  The grid has 47 points. The left operand's window is one block, fetched once and found again at every point.
  The right operand's window is a block of 2048 columns of an array of 95000: the block at the last point
  overhangs the array, and its fetch fills only the columns inside the array, the rest of the buffer holding
  anything. The result's window is cut the same way. After the body at point `t` the first buffer holds the
  left block, the second the right block filled out past the array's end (here with zeros: nothing reads that
  part), and the third the product payload of the two. Entry (r, q) of the payload reads column q of the right
  block only, so on the columns the write-back moves it does not depend on what fills the buffer past the
  array's end: that is all the obligation of a cut window asks.
-/
import proofs.«168535_j63239098466878_2_alg».proof.Proof.Body
import proofs.«168535_j63239098466878_2_alg».proof.Proof.Payload
import proofs.«168535_j63239098466878_2_alg».proof.Proof.Gen.KernelIdeal.Frame

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cuts, decided over the grid -/

/-- At every point the right operand's block keeps all its 768 rows, and the result's block is cut on the column
    axis exactly as the right operand's is. -/
theorem cut_facts : ∀ t : Fin cfg0.N, win0_1.xsize (grid0.coords t) (0 : Fin 2) = 768
    ∧ win0_2.xsize (grid0.coords t) (1 : Fin 2) = win0_1.xsize (grid0.coords t) (1 : Fin 2) :=
  (by decide +kernel : ∀ t : Fin grid0.N, win0_1.xsize (grid0.coords t) (0 : Fin 2) = 768
    ∧ win0_2.xsize (grid0.coords t) (1 : Fin 2) = win0_1.xsize (grid0.coords t) (1 : Fin 2))

/-! ## What the filler past the array's end does not reach -/

/-- Two fillings of the right operand's buffer with one block agree wherever the fetch lands. -/
theorem fill_agree (i : grid0.Coords) (d d' : S768x2048.Idx → Elt Ideal .f32) (g : (win0_1.xblock i).Idx → Elt Ideal .f32)
    (j : S768x2048.Idx) (hm : win0_1.moved i j = true) : win0_1.fill i d g j = win0_1.fill i d' g j := by
  unfold Window.fill; rw [dif_pos hm, dif_pos hm]

/-- The part of the payload the write-back moves is the same whatever fills the right operand's buffer past
    the array's end. -/
theorem cut_pay_fill (i : grid0.Coords) (h0 : win0_1.xsize i (0 : Fin 2) = 768)
    (h1 : win0_2.xsize i (1 : Fin 2) = win0_1.xsize i (1 : Fin 2))
    (x0 : Vec Ideal S1024x768 .f32) (g : (win0_1.xblock i).Idx → Elt Ideal .f32) (d d' : S768x2048.Idx → Elt Ideal .f32) :
    win0_2.cut i (k0_pay1 (F := Ideal) x0 (win0_1.fill i d g)) = win0_2.cut i (k0_pay1 (F := Ideal) x0 (win0_1.fill i d' g)) := by
  funext y
  show k0_pay1 (F := Ideal) x0 (win0_1.fill i d g) (win0_2.xinj i y) = k0_pay1 (F := Ideal) x0 (win0_1.fill i d' g) (win0_2.xinj i y)
  refine Payload.pay_congr_cols x0 _ _ (win0_1.xsize i (1 : Fin 2)) (fun j hj => ?_) (win0_2.xinj i y) ?_
  · refine fill_agree i d d' g j ((win0_1.moved_iff i j).mpr fun a => ?_)
    match a with
    | ⟨0, _⟩ => show (j 0).val < win0_1.xsize i (0 : Fin 2); rw [h0]; exact (j 0).isLt
    | ⟨1, _⟩ => exact hj
  · show (y 1).val < win0_1.xsize i (1 : Fin 2)
    rw [← h1]; exact (y 1).isLt

/-! ## The proof data -/

/-- The right operand's block at point `t` as its staging buffer is taken to hold it: the array's words on the
    columns inside the array, zero past its end. -/
def wblk (c : Dev nD) (t : Fin cfg0.N) : S768x2048.Idx → Elt Ideal .f32 :=
  win0_1.fill (grid0.coords t) (fun _ => FloatOps.ofBits (F := Ideal) .f32 0#32) (iblk m c 1 t)

/-- The proof data on core `c`: the arrays as the region finds them; after the body the left block, the filled
    right block and their payload; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wblk m c t
    | ⟨2, _⟩ => k0_pay1 (F := Ideal) (iblk m c 0 t) (wblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) :
    (dats m 0 c).after 2 t = k0_pay1 (F := Ideal) (iblk m c 0 t) (wblk m c t) := by dsimp only [dats]

/-- The left operand's buffer holds its block at every point, fetched there or not. -/
theorem before0_0 (c : Dev nD) (t : Fin cfg0.N) (d) : (dats m 0 c).before 0 t d = iblk m c 0 t :=
  before0_0_of m (dats m 0 c) (A_eq m c 0) (after0_0 m c) t d

/-- The right operand's buffer is fetched at every point: its block where the fetch lands, `d` elsewhere. -/
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]

/-- The result's buffer was written back at the point before (or nothing has filled it yet): it holds anything. -/
theorem before0_2 (c : Dev nD) (t : Fin cfg0.N) (d) : (dats m 0 c).before 2 t d = d := by
  refine (dats m 0 c).before_out_reset 2 rfl t ?_ d
  by_cases h : t.val = 0
  · exact .inl h
  · exact .inr ⟨h, flush0_2 _⟩

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (Body.sound_kernel (F := Ideal) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have e1 : win0_1.cut (grid0.coords t) (wblk m c t) = iblk m c 1 t := win0_1.cut_fill _ _ _
  have e2 : win0_2.fill (grid0.coords t) (k0_pay1 (F := Ideal) (iblk m c 0 t) (win0_1.fill (grid0.coords t) d1 (iblk m c 1 t)))
      (win0_2.cut (grid0.coords t) (k0_pay1 (F := Ideal) (iblk m c 0 t) (wblk m c t)))
      = k0_pay1 (F := Ideal) (iblk m c 0 t) (win0_1.fill (grid0.coords t) d1 (iblk m c 1 t)) := by
    unfold wblk
    exact (congrArg (win0_2.fill (grid0.coords t) _)
      (cut_pay_fill (grid0.coords t) (cut_facts t).1 (cut_facts t).2 (iblk m c 0 t) (iblk m c 1 t)
        (fun _ => FloatOps.ofBits (F := Ideal) .f32 0#32) d1)).trans (win0_2.fill_cut (grid0.coords t) _)
  isplitl [H1]
  · iexists d1; rw [e1]; iexact H1
  · iexists _; rw [e2]; iexact H2

/-- The library's body obligation, at every point. -/
theorem body_obligation (c : Dev nD) :
    BodyObligationLoose (dats m 0 c) (defs₀ (F := Ideal)) Variants.none () Set.univ := fun t => by
  rw [bigSep_W0, bigSep_W0]
  exact sound_body m c t

end Cert.KernelIdeal.Data

end
-- ==== Proof.Spec.lean ====
/-
  The specification both programs meet at the ideal values: the product of a left matrix `x` (1024 × 768) and
  a right matrix `w` (768 × 95000), entry by entry — entry (r, q) is the sum over k of x (r, k) · w (k, q) on the
  extended reals. No sum is regrouped on either side (the kernel tiles the columns only), so no algebraic law and
  no finiteness of the inputs is needed to join them.
-/
import Idealize.ShloMosaic.PureOps.Ideal
import Idealize.ShloMosaic.Lib.ValueIdx

noncomputable section

namespace Cert.Spec

open Idealize.ShloMosaic

abbrev SX : Shape := ⟨2, ![1024, 768]⟩
abbrev SW : Shape := ⟨2, ![768, 95000]⟩
abbrev SO : Shape := ⟨2, ![1024, 95000]⟩

/-- The cell of `x` that result cell `i` meets at `k`: row of `i`, column `k`. -/
abbrev xcell (i : SO.Idx) (k : Fin 768) : SX.Idx := fun a => match a with
  | ⟨0, _⟩ => ⟨(i 0).val, (i 0).isLt⟩
  | ⟨1, _⟩ => ⟨k.val, k.isLt⟩

/-- The cell of `w` it meets there: row `k`, column of `i`. -/
abbrev wcell (i : SO.Idx) (k : Fin 768) : SW.Idx := fun a => match a with
  | ⟨0, _⟩ => ⟨k.val, k.isLt⟩
  | ⟨1, _⟩ => ⟨(i 1).val, (i 1).isLt⟩

/-- The matrix product at the ideal values. -/
def prod (x : SX.Idx → Elt Ideal .f32) (w : SW.Idx → Elt Ideal .f32) : SO.Idx → Elt Ideal .f32 :=
  fun i => ∑ k : Fin 768, x (xcell i k) * w (wcell i k)

theorem prod_apply (x : SX.Idx → Elt Ideal .f32) (w : SW.Idx → Elt Ideal .f32) (i : SO.Idx) :
    prod x w i = ∑ k : Fin 768, x (xcell i k) * w (wcell i k) := rfl

end Cert.Spec

end
-- ==== Proof.Final.lean ====
/-
  The idealized kernel's result array in closed form. The frame run leaves the result array holding, block by
  block in point order, the part inside the array of what the body left in the result's staging buffer. At point
  `t` that part is the columns 2048·t … of the product of the left matrix `x` (the whole of its one block) and the
  right matrix `w`: entry (r, q) of the body's payload is the sum over k of x (r, k) · w (k, 2048·t + q), because
  the left window's block index is (0, 0) and the right and result windows' block index is (0, t). Column q of the
  array lies in the block of point q / 2048, and 95000 columns need the 47 points; so the array ends holding the
  product entry by entry.
-/
import proofs.«168535_j63239098466878_2_alg».proof.Proof.Data
import proofs.«168535_j63239098466878_2_alg».proof.Proof.Spec
import Idealize.ShloMosaic.Lib.Pipeline.Value

set_option maxRecDepth 16384

noncomputable section

namespace Cert.KernelIdeal.Final

open Cert.KernelIdeal Cert.KernelIdeal.Gen Cert.KernelIdeal.Data
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The run -/

set_option backward.isDefEq.respectTransparency.types false in
/-- Every weakly fair execution of @main terminates, every array of the pipeline at what the library computes from
    the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The index maps and cuts, decided over the grid -/

theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_2.xsize (grid0.coords t) (0 : Fin 2) = 1024
    ∧ win0_2.xsize (grid0.coords t) (1 : Fin 2) + t.val * 2048 = min 95000 (t.val * 2048 + 2048) :=
  (by decide +kernel : ∀ t : Fin grid0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_2.xsize (grid0.coords t) (0 : Fin 2) = 1024
    ∧ win0_2.xsize (grid0.coords t) (1 : Fin 2) + t.val * 2048 = min 95000 (t.val * 2048 + 2048))

/-! ## Reading the blocks -/

/-- The right operand's filled block at a cell the fetch lands on is the block there. -/
theorem fill_at (i : grid0.Coords) (d : S768x2048.Idx → Elt Ideal .f32) (g : (win0_1.xblock i).Idx → Elt Ideal .f32)
    (j : S768x2048.Idx) (hm : ∀ a, (j a).val < win0_1.xsize i a) :
    win0_1.fill i d g j = g (fun a => ⟨(j a).val, hm a⟩) := by
  unfold Window.fill; rw [dif_pos ((win0_1.moved_iff i j).mpr hm)]

/-- The left factor: the left block at row r, column k is `x` at (r, k). -/
theorem left_cell (c : Dev nD) (t : Fin cfg0.N) (j : ((cfg0.win 2).xblock (grid0.coords t)).Idx) (k : Fin 768) :
    iblk m c 0 t (Payload.lcell (win0_2.xinj (grid0.coords t) j) k)
      = V m c main_v21 (Spec.xcell (((cfg0.win 2).blk t).view.emb j) k) := by
  obtain ⟨e00, e01, e10, e11, e20, e21, hx0, hx1⟩ := idx_facts t
  show V m c main_v21 (((cfg0.win 0).blk t).view.emb (Payload.lcell (win0_2.xinj (grid0.coords t) j) k)) = _
  refine congrArg (V m c main_v21) (funext fun a => Fin.ext ?_)
  match a with
  | ⟨0, _⟩ =>
    show win0_0.index t (0 : Fin 2) * 1024 + 1 * (j 0).val = win0_2.index t (0 : Fin 2) * 1024 + 1 * (j 0).val
    omega
  | ⟨1, _⟩ =>
    show win0_0.index t (1 : Fin 2) * 768 + 1 * k.val = k.val
    omega

/-- The right factor: the filled right block at row k, column q (a column the write-back moves) is `w` at
    (k, 2048·t + q). -/
theorem right_cell (c : Dev nD) (t : Fin cfg0.N) (j : ((cfg0.win 2).xblock (grid0.coords t)).Idx) (k : Fin 768) :
    wblk m c t (Payload.rcell (win0_2.xinj (grid0.coords t) j) k)
      = V m c main_arg5 (Spec.wcell (((cfg0.win 2).blk t).view.emb j) k) := by
  obtain ⟨e00, e01, e10, e11, e20, e21, hx0, hx1⟩ := idx_facts t
  have hm : ∀ a, ((Payload.rcell (win0_2.xinj (grid0.coords t) j) k) a).val < win0_1.xsize (grid0.coords t) a := fun a => by
    match a with
    | ⟨0, _⟩ => show k.val < win0_1.xsize (grid0.coords t) (0 : Fin 2); rw [(cut_facts t).1]; exact k.isLt
    | ⟨1, _⟩ => show (j 1).val < win0_1.xsize (grid0.coords t) (1 : Fin 2); rw [← (cut_facts t).2]; exact (j 1).isLt
  unfold wblk
  rw [fill_at (grid0.coords t) _ (iblk m c 1 t) _ hm]
  show V m c main_arg5 (((cfg0.win 1).blk t).view.emb _) = _
  refine congrArg (V m c main_arg5) (funext fun a => Fin.ext ?_)
  match a with
  | ⟨0, _⟩ =>
    show win0_1.index t (0 : Fin 2) * 768 + 1 * k.val = k.val
    omega
  | ⟨1, _⟩ =>
    show win0_1.index t (1 : Fin 2) * 2048 + 1 * (j 1).val = win0_2.index t (1 : Fin 2) * 2048 + 1 * (j 1).val
    omega

/-! ## What a point writes back, and the cover -/

/-- What point `t` writes back is block `t` of the product of `x` and `w` as the region finds them. -/
theorem flushed_eq (c : Dev nD) (t : Fin cfg0.N) :
    (dats m 0 c).flushed 2 t
      = ((cfg0.win 2).blk t).view.read (Elt Ideal) (Spec.prod (V m c main_v21) (V m c main_arg5)) := by
  show (cfg0.win 2).cut (grid0.coords t) ((dats m 0 c).after 2 t) = _
  rw [after0_2]
  funext j
  show k0_pay1 (F := Ideal) (iblk m c 0 t) (wblk m c t) (win0_2.xinj (grid0.coords t) j)
    = Spec.prod (V m c main_v21) (V m c main_arg5) (((cfg0.win 2).blk t).view.emb j)
  refine (Payload.pay_apply (iblk m c 0 t) (wblk m c t) (win0_2.xinj (grid0.coords t) j)).trans ?_
  refine Finset.sum_congr rfl fun k _ => ?_
  rw [left_cell m c t j k, right_cell m c t j k]

/-- An index of the result array is in point `t`'s block iff each coordinate is in the block's range inside the
    array. -/
theorem mem_blk (t : Fin cfg0.N) (i : S1024x95000.Idx) :
    i ∈ ((cfg0.win 2).blk t).view.set ↔ ∀ a : Fin 2, win0_2.index t a * S1024x2048.size a ≤ (i a).val
      ∧ (i a).val < win0_2.index t a * S1024x2048.size a + win0_2.xsize (grid0.coords t) a := by
  show i ∈ ((View.whole main_v22).slice (win0_2.rect t)).set ↔ _
  rw [View.set_slice_whole, Rect.mem_set_unit]
  exact Iff.rfl

/-- Every index of the result array is in the block of the point its column falls in. -/
theorem cover (i : S1024x95000.Idx) :
    ∃ t : Fin cfg0.N, (cfg0.win 2).flush t = true ∧ i ∈ ((cfg0.win 2).blk t).view.set := by
  have hi0 : (i 0).val < 1024 := (i 0).isLt
  have hi1 : (i 1).val < 95000 := (i 1).isLt
  have hN : cfg0.N = 47 := N_0
  have hlt : (i 1).val / 2048 < cfg0.N := by rw [hN]; omega
  obtain ⟨e00, e01, e10, e11, e20, e21, hx0, hx1⟩ := idx_facts ⟨(i 1).val / 2048, hlt⟩
  have e21' : win0_2.index ⟨(i 1).val / 2048, hlt⟩ (1 : Fin 2) = (i 1).val / 2048 := e21
  have hx1' : win0_2.xsize (grid0.coords ⟨(i 1).val / 2048, hlt⟩) (1 : Fin 2) + (i 1).val / 2048 * 2048
      = min 95000 ((i 1).val / 2048 * 2048 + 2048) := hx1
  refine ⟨⟨(i 1).val / 2048, hlt⟩, flush0_2 _, ?_⟩
  rw [mem_blk]
  intro a
  match a with
  | ⟨0, _⟩ =>
    show win0_2.index ⟨(i 1).val / 2048, hlt⟩ (0 : Fin 2) * 1024 ≤ (i 0).val
      ∧ (i 0).val < win0_2.index ⟨(i 1).val / 2048, hlt⟩ (0 : Fin 2) * 1024
        + win0_2.xsize (grid0.coords ⟨(i 1).val / 2048, hlt⟩) (0 : Fin 2)
    rw [e20, hx0]; omega
  | ⟨1, _⟩ =>
    show win0_2.index ⟨(i 1).val / 2048, hlt⟩ (1 : Fin 2) * 2048 ≤ (i 1).val
      ∧ (i 1).val < win0_2.index ⟨(i 1).val / 2048, hlt⟩ (1 : Fin 2) * 2048
        + win0_2.xsize (grid0.coords ⟨(i 1).val / 2048, hlt⟩) (1 : Fin 2)
    rw [e21']; omega

/-- The result array after the run is the product of `x` and `w`. -/
theorem final (c : Dev nD) :
    (dats m 0 c).arrAt 2 cfg0.N = Spec.prod (V m c main_v21) (V m c main_arg5) :=
  (dats m 0 c).arrAt_eq_of_cover 2 (Spec.prod (V m c main_v21) (V m c main_arg5)) (fun t _ => flushed_eq m c t) cover

end Cert.KernelIdeal.Final

end
-- ==== Proof.RefValue.lean ====
/-
  The reference's result at the ideal values is the specification's product: its last operation is the host's
  matrix product of the stage `x` (the 27 operations before it) and the argument `w`, which at the ideal values is
  the sum over the contracted axis of the products, entry by entry.
-/
import proofs.«168535_j63239098466878_2_alg».proof.Proof.Gen.ReferenceIdeal.Read
import proofs.«168535_j63239098466878_2_alg».proof.Proof.Spec

noncomputable section

namespace Cert.ReferenceIdeal.RefValue

open Cert.ReferenceIdeal Cert.ReferenceIdeal.Read Idealize.ShloMosaic

/-- The operand cells the reference's product meets are the specification's. -/
theorem lidx_eq (i : S1024x95000.Idx) (k : Fin 768) : lidx_main_v22 i k = Cert.Spec.xcell i k :=
  funext fun a => by
    match a with
    | ⟨0, _⟩ => rfl
    | ⟨1, _⟩ => rfl
theorem ridx_eq (i : S1024x95000.Idx) (k : Fin 768) : ridx_main_v22 i k = Cert.Spec.wcell i k :=
  funext fun a => by
    match a with
    | ⟨0, _⟩ => rfl
    | ⟨1, _⟩ => rfl

/-- The reference's result stage is the product of its `x` stage and `w`. -/
theorem result_eq (x0 : (⟨S1024, .i32⟩ : BufTy).Contents (Elt Ideal)) (x1 : (⟨S90000x758, .f32⟩ : BufTy).Contents (Elt Ideal))
    (x2 : (⟨S90000x10, .f32⟩ : BufTy).Contents (Elt Ideal)) (x3 : (⟨S758x10, .f32⟩ : BufTy).Contents (Elt Ideal))
    (x4 : (⟨S758, .f32⟩ : BufTy).Contents (Elt Ideal)) (x5 : (⟨S768x95000, .f32⟩ : BufTy).Contents (Elt Ideal)) :
    val_main_v22 (F := Ideal) x0 x1 x2 x3 x4 x5 = Cert.Spec.prod (val_main_v21 (F := Ideal) x0 x1 x2 x3 x4) x5 := by
  funext i
  rw [val_main_v22_apply, Cert.Spec.prod_apply]
  exact Finset.sum_congr rfl fun k _ => by rw [lidx_eq, ridx_eq]

end Cert.ReferenceIdeal.RefValue

end
-- ==== Proof.HostGlue.lean ====
/- The idealized kernel's @main runs, before its one region, the same host operations as the reference program's
   first twenty-seven, in the same order and over the same argument arrays. So the buffer the region's first window
   stages, as the region finds it, is the reference's value of that stage at the launch contents of the five
   argument arrays it depends on. -/
import proofs.«168535_j63239098466878_2_alg».proof.Proof.Gen.KernelIdeal.Frame
import proofs.«168535_j63239098466878_2_alg».proof.Proof.Gen.ReferenceIdeal.Read
import Idealize.ShloMosaic.Lib.StableHlo.Run

noncomputable section

namespace Cert.KernelIdeal.HostGlue

open Cert.KernelIdeal Cert.KernelIdeal.Gen Idealize.ShloMosaic Idealize.ShloMosaic.TcCoe Idealize.SL.Sem Idealize.ShloMosaic.StableHlo

variable {F : FTy → Type} [FloatOps F]

set_option maxHeartbeats 1000000 in
/-- The concatenated left operand as the region finds it: each host operation's result read at its own buffer is its
    function of its operands' contents, an argument array is as launched, and the composed term is the reference's
    stage, the two programs' shapes and dimension records being the same literals under two names. -/
theorem x_eq_of (m : (ℓ : Loc nD τ sig) → Buf (Elt F) ℓ) (c : Dev nD) :
    (Gen.V m c main_v21 : S1024x768.Idx → Elt F .f32)
      = Cert.ReferenceIdeal.Read.val_main_v21 (F := F) (m ((c : Thread nD τ).loc main_arg0)) (m ((c : Thread nD τ).loc main_arg1))
          (m ((c : Thread nD τ).loc main_arg2)) (m ((c : Thread nD τ).loc main_arg3)) (m ((c : Thread nD τ).loc main_arg4)) := by
  dsimp only [Gen.V, Gen.hostOps0]
  after_results_simp
  rfl

/-- At the idealized values. -/
theorem x_eq (m : (ℓ : Loc nD τ sig) → Buf (Elt Ideal) ℓ) (c : Dev nD) :
    (Gen.V m c main_v21 : S1024x768.Idx → Elt Ideal .f32)
      = Cert.ReferenceIdeal.Read.val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  x_eq_of m c

end Cert.KernelIdeal.HostGlue

end
-- ==== Proof.lean ====
/-
  The certificate: a reverse-embedding product computed by a column-tiled kernel against the plain product.
  Both programs build the left matrix `x` (1024 × 768) by the same 27 host operations — two row gathers from the
  tables by the (wrapped) ids, a small product with a transposed weight plus a bias row, their sum, and ten
  constant columns joined on — and multiply it by the right matrix `w` (768 × 95000). The reference multiplies
  once on the host. The kernel runs over 47 grid points; point t multiplies the whole of `x` by columns
  2048·t … of `w` (both narrowed to the shorter float format first, which is the identity at the ideal values) into
  a zero accumulator and writes columns 2048·t … of the result; the last block overhangs the array and is cut at
  its end on the way in and on the way out. No sum is split across points, so at the ideal values both results
  are, entry by entry, the sum over k of x (r, k) · w (k, q): no algebraic law beyond that and no use of the
  inputs' finiteness.
  The word-level program's frame is proved with proof data that says nothing of what the body leaves in its
  buffers; the idealized program's frame and value with proof data that names it; the reference's frame and value are
  its generated run; nothing was rewritten by the idealization, so that conjunct is trivial.
-/
import proofs.«168535_j63239098466878_2_alg».proof.Defs
import proofs.«168535_j63239098466878_2_alg».proof.Proof.Gen.Kernel
import proofs.«168535_j63239098466878_2_alg».proof.Proof.Gen.KernelIdeal
import proofs.«168535_j63239098466878_2_alg».proof.Proof.Gen.ReferenceIdeal
import proofs.«168535_j63239098466878_2_alg».proof.Proof.Gen.Pre_finite_inputs
import proofs.«168535_j63239098466878_2_alg».proof.Proof.Gen.ReferenceIdeal.Run
import proofs.«168535_j63239098466878_2_alg».proof.Proof.Gen.ReferenceIdeal.Read
import proofs.«168535_j63239098466878_2_alg».proof.Proof.KernelFrame
import proofs.«168535_j63239098466878_2_alg».proof.Proof.Final
import proofs.«168535_j63239098466878_2_alg».proof.Proof.RefValue
import proofs.«168535_j63239098466878_2_alg».proof.Proof.HostGlue
import Idealize.ShloMosaic.Adequacy
import Idealize.ShloMosaic.Init

noncomputable section

namespace Cert.Proof

open Idealize.ShloMosaic Idealize.ShloMosaic.TcCoe Idealize.SL.Sem

/-! ## The idealized kernel's run, read -/

section KernelRun

open Cert.KernelIdeal Cert.KernelIdeal.Gen

/-- Every weakly fair execution of the idealized kernel terminates with the result array at the product of `x`
    (as its host operations leave it) and the argument `w`, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22)
          = Cert.Spec.prod (V m c main_v21) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans ((Cert.KernelIdeal.Final.final m c).trans
        (congrArg (Cert.Spec.prod (V m c main_v21)) (V_main_arg5 m c))),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((Cert.KernelIdeal.Data.dats m 0 c).arrAt_in 1 rfl _).trans
        ((Cert.KernelIdeal.Data.A_eq m c 1).trans (V_main_arg5 m c)))⟩)
    (Cert.KernelIdeal.Final.run_main m ρ)

end KernelRun

/-! ## The claims -/

theorem frame_k : Cert.frame_Kernel (hKernel := Cert.Kernel.Gen.facts) (hPre_finite_inputs := Cert.Pre_finite_inputs.Gen.facts) :=
  fun m ρ _ => Cert.Kernel.FrameProof.frame m ρ

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (kernel_run m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both runs end with the result at the product of the same `x` stage of
    the arguments and the same `w`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.prod (Cert.ReferenceIdeal.Read.val_main_v21 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩) (kernel_run m ρ)
    rw [Cert.KernelIdeal.HostGlue.x_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
